-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x4096 : S_.BroadcastsInDim S1x4096 (![] : Fin 0 → Fin S1x4096.rank)
  reducesTo_S1x4096_S_d0_1 : S1x4096.ReducesTo [0, 1] S_
  bcast_S_S1x1024 : S_.BroadcastsInDim S1x1024 (![] : Fin 0 → Fin S1x1024.rank)
  reducesTo_S1x1024_S_d0_1 : S1x1024.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x1024 .f32) (main_arg12 : FVec F S1x4096 .f32) (main_arg13 : FVec F S4096 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1x4096 .f32 := Host.absf main_arg12
  let main_cst_22 : FVec F S_ .f32 := constant S_ .f32 0x7F800000#32
  let main_v60 : FVec F S1x4096 .f32 := broadcastInDim S1x4096 ![] bcast_S_S1x4096 main_cst_22
  let main_v61 : IVec S1x4096 1 := cmpf .olt main_v59 main_v60
  let main_c_23 : IVec S_ 1 := constantI S_ 1 1#1
  let main_v62 : IVec S_ 1 := (fun x v => Host.reduce IntOp.andi x v reducesTo_S1x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_v48 main_v49 main_v50

def fn_part1 {F : FTy → Type} [FloatOps F] (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x4096 .f32) (main_arg1 : FVec F S1024x4096 .f32) (main_arg2 : FVec F S4096x1024 .f32) (main_arg3 : FVec F S1x4096 .f32) (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S128x4096 : Shape := ⟨2, ![128, 4096]⟩
abbrev S128x1024 : Shape := ⟨2, ![128, 1024]⟩

abbrev nBuf : Space → Nat
  | .hbm => 28
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S1x4096, .f32⟩
  | .hbm, ⟨26, _⟩ => ⟨S8192x4096, .f32⟩
  | .hbm, ⟨27, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S1024x4096, .bf16⟩
  | .local _ .vmem, ⟨3, _⟩ => ⟨S4096x1024, .bf16⟩
  | .local _ .vmem, ⟨4, _⟩ => ⟨S1024x4096, .bf16⟩
  | .local _ .vmem, ⟨5, _⟩ => ⟨S4096x1024, .bf16⟩
  | .local _ .vmem, ⟨6, _⟩ => ⟨S1x4096, .f32⟩
  | .local _ .vmem, ⟨7, _⟩ => ⟨S1x1024, .f32⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | .local _ .vmem, ⟨11, _⟩ => ⟨S1x4096, .f32⟩
  | .local _ .vmem, ⟨12, _⟩ => ⟨S1x4096, .f32⟩
  | .local _ .vmem, ⟨13, _⟩ => ⟨S128x4096, .f32⟩
  | .local _ .vmem, ⟨14, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  broadcasts_S1x4096_S128x4096 : S1x4096.Broadcasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S1x4096_S1x4096 : S1x4096.ShapeCasts S1x4096
  shapeCasts_S8192x4096_S4x2048x4096 : S8192x4096.ShapeCasts S4x2048x4096
  dot_S128x4096_S1024x4096_S128x1024_1_1_0_0_n_n_wf : DotDims.WF S128x4096 S1024x4096 S128x1024 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x4096.size a ≤ S8192x4096.size a
  hwx0_12 : ∀ i : grid0.Coords, EltTy.bits .f32 = 32 ∨ (Rect.block (s := S8192x4096) S128x4096.size (cc0_transform_12 i) (hinb0_12 i)).WholeWords (EltTy.packing .f32)

variable [Facts₀]

def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S128x4096.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S8192x4096, .f32⟩
  | .hbm, ⟨23, _⟩ => ⟨S8192x4096, .f32⟩
  | .hbm, ⟨24, _⟩ => ⟨S4096x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S8192x4096, .f32⟩
  | .hbm, ⟨40, _⟩ => ⟨S8192x4096, .f32⟩
  | .hbm, ⟨41, _⟩ => ⟨S4096x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S1x4096_S8192x4096_0_1 : S1x4096.BroadcastsInDim S8192x4096 (![0, 1] : Fin 2 → Fin S8192x4096.rank)
  transposes_S1024x4096_S4096x1024_1_0 : S1024x4096.Transposes [1, 0] S4096x1024
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  shapeCasts_S8192x4096_S4x2048x4096 : S8192x4096.ShapeCasts S4x2048x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The specification. One branch of the layer sends a row `x` of 4096 inputs to the 4096 outputs

      o ↦ ( ∑ s, ( ( ∑ i, (x i · v2 i) · Vq (s, i) ) · w s ) · Uq (o, s) ) · u1 o

  (scale the inputs, contract against the 1024 rows of `Vq`, scale the 1024 intermediate values, contract against the
  rows of `Uq`, scale the outputs). A row of the result is the main branch plus the residual branch plus the bias.
  Every row of the 8192 × 4096 result depends on the same row of the input matrix and on nothing else of it, which is
  why a tiling of the rows into blocks computes the same matrix.

  The kernel is handed the sign matrices `sign V`; the reference forms `V + (sign V − V)`. On finite entries the two
  are one matrix (`quantize_eq`); at an infinite entry they are not (`⊤ + (1 − ⊤) = ⊥`), so this is where the
  finiteness of the inputs is used.
-/
import Idealize.ShloMosaic.PureOps.Ideal
import Idealize.ShloMosaic.PureOps.Ideal.Laws
import Idealize.ShloMosaic.Lib.ValueIdx

noncomputable section

namespace Cert.LowRank

open Idealize.ShloMosaic Idealize.ShloMosaic.ValueIdx

/-- An extended-real matrix of `m` rows and `n` columns. -/
abbrev Mat (m n : Nat) : Type := (⟨2, ![m, n]⟩ : Shape).Idx → EReal

/-- One low-rank branch applied to one row `x`, read at output column `o`. -/
def branchRow (x : Fin 4096 → EReal) (v2 : Mat 1 4096) (Vq : Mat 1024 4096) (w : Mat 1 1024) (Uq : Mat 4096 1024)
    (u1 : Mat 1 4096) (o : Fin 4096) : EReal :=
  (∑ s : Fin 1024, ((∑ i : Fin 4096, (x i * v2 (ix2 0 i)) * Vq (ix2 s i)) * w (ix2 0 s)) * Uq (ix2 o s)) * u1 (ix2 0 o)

/-- One row of the layer's output: the main branch, plus the residual branch, plus the bias. -/
def outRow (x : Fin 4096 → EReal)
    (v2 : Mat 1 4096) (Vq : Mat 1024 4096) (w : Mat 1 1024) (Uq : Mat 4096 1024) (u1 : Mat 1 4096)
    (v2R : Mat 1 4096) (VqR : Mat 1024 4096) (wR : Mat 1 1024) (UqR : Mat 4096 1024) (u1R : Mat 1 4096)
    (bias : Mat 1 4096) (o : Fin 4096) : EReal :=
  branchRow x v2 Vq w Uq u1 o + branchRow x v2R VqR wR UqR u1R o + bias (ix2 0 o)

/-- The whole 8192 × 4096 result: row `r` is `outRow` of row `r` of `X`. -/
def layer (X : Mat 8192 4096)
    (v2 : Mat 1 4096) (Vq : Mat 1024 4096) (w : Mat 1 1024) (Uq : Mat 4096 1024) (u1 : Mat 1 4096)
    (v2R : Mat 1 4096) (VqR : Mat 1024 4096) (wR : Mat 1 1024) (UqR : Mat 4096 1024) (u1R : Mat 1 4096)
    (bias : Mat 1 4096) : Mat 8192 4096 :=
  fun j => outRow (fun i => X (ix2 (j 0) i)) v2 Vq w Uq u1 v2R VqR wR UqR u1R bias (j 1)

/-- On a real number, adding back the difference to the sign gives the sign. -/
theorem quantize_real (r : ℝ) : (r : EReal) + (Ideal.sign (r : EReal) - (r : EReal)) = Ideal.sign (r : EReal) := by
  rw [Ideal.sign_coe, ← EReal.coe_sub, ← EReal.coe_add]
  congr 1
  ring

/-- On an array all of whose entries are real, `a + (sign a − a)` is `sign a`, entry by entry. -/
theorem quantize_eq {ι : Type} (a : ι → EReal) (h : ∀ i, ∃ r : ℝ, a i = (r : EReal)) :
    (fun i => a i + (Ideal.sign (a i) - a i)) = fun i => Ideal.sign (a i) := by
  funext i
  obtain ⟨r, hr⟩ := h i
  rw [hr]
  exact quantize_real r

end Cert.LowRank

end
-- ==== Proof.RefLayer.lean ====
/-
  The reference computes `layer`. Its program is a straight line of whole-matrix operations: each branch multiplies the
  8192 × 4096 input matrix by a broadcast row, contracts it with a transposed 1024 × 4096 matrix, multiplies by a broadcast
  row, contracts with a transposed 4096 × 1024 matrix and multiplies by a broadcast row; the two branches are added and a
  broadcast bias row is added. Read at an entry (r, o), a contraction with a transpose is the sum over the shared
  index of products of the two matrices' ROWS, a product with a broadcast row is the product with that row's entry in
  the same column: the entry is `outRow` of row r of the input matrix at column o.
-/
import proofs.«134688_j8615704396413_1_alg».proof.Proof.Gen.ReferenceIdeal.Read
import proofs.«134688_j8615704396413_1_alg».proof.Proof.Spec

noncomputable section

namespace Cert.ReferenceIdeal.AsLayer

open Cert.ReferenceIdeal Cert.ReferenceIdeal.Read Idealize.ShloMosaic Idealize.ShloMosaic.ValueIdx Cert.LowRank

/-! ## The composed index maps, at coordinates

A broadcast row is read at row 0 and the same column; a transpose swaps the two coordinates; a contraction of the left
operand's columns with the right operand's rows reads the left operand at (row, k) and the right one at (k, column). -/

theorem row_v8 (r : Fin 8192) (q : Fin 4096) : idx_main_v8 (ix2 r q) = ix2 0 q := funext fun a => Fin.ext (by match a with | ⟨0, _⟩ => rfl | ⟨1, _⟩ => rfl)
theorem row_v12 (r : Fin 8192) (s : Fin 1024) : idx_main_v12 (ix2 r s) = ix2 0 s := funext fun a => Fin.ext (by match a with | ⟨0, _⟩ => rfl | ⟨1, _⟩ => rfl)
theorem row_v16 (r : Fin 8192) (q : Fin 4096) : idx_main_v16 (ix2 r q) = ix2 0 q := funext fun a => Fin.ext (by match a with | ⟨0, _⟩ => rfl | ⟨1, _⟩ => rfl)
theorem row_v25 (r : Fin 8192) (q : Fin 4096) : idx_main_v25 (ix2 r q) = ix2 0 q := funext fun a => Fin.ext (by match a with | ⟨0, _⟩ => rfl | ⟨1, _⟩ => rfl)
theorem row_v29 (r : Fin 8192) (s : Fin 1024) : idx_main_v29 (ix2 r s) = ix2 0 s := funext fun a => Fin.ext (by match a with | ⟨0, _⟩ => rfl | ⟨1, _⟩ => rfl)
theorem row_v33 (r : Fin 8192) (q : Fin 4096) : idx_main_v33 (ix2 r q) = ix2 0 q := funext fun a => Fin.ext (by match a with | ⟨0, _⟩ => rfl | ⟨1, _⟩ => rfl)
theorem row_v37 (r : Fin 8192) (q : Fin 4096) : idx_main_v37 (ix2 r q) = ix2 0 q := funext fun a => Fin.ext (by match a with | ⟨0, _⟩ => rfl | ⟨1, _⟩ => rfl)
theorem swap_v10 (i : Fin 4096) (s : Fin 1024) : idx_main_v10 (ix2 i s) = ix2 s i := funext fun a => Fin.ext (by match a with | ⟨0, _⟩ => rfl | ⟨1, _⟩ => rfl)
theorem swap_v14 (s : Fin 1024) (o : Fin 4096) : idx_main_v14 (ix2 s o) = ix2 o s := funext fun a => Fin.ext (by match a with | ⟨0, _⟩ => rfl | ⟨1, _⟩ => rfl)
theorem swap_v27 (i : Fin 4096) (s : Fin 1024) : idx_main_v27 (ix2 i s) = ix2 s i := funext fun a => Fin.ext (by match a with | ⟨0, _⟩ => rfl | ⟨1, _⟩ => rfl)
theorem swap_v31 (s : Fin 1024) (o : Fin 4096) : idx_main_v31 (ix2 s o) = ix2 o s := funext fun a => Fin.ext (by match a with | ⟨0, _⟩ => rfl | ⟨1, _⟩ => rfl)
theorem left_v11 (r : Fin 8192) (s : Fin 1024) (k : Fin 4096) : lidx_main_v11 (ix2 r s) k = ix2 r k := funext fun a => Fin.ext (by match a with | ⟨0, _⟩ => rfl | ⟨1, _⟩ => rfl)
theorem right_v11 (r : Fin 8192) (s : Fin 1024) (k : Fin 4096) : ridx_main_v11 (ix2 r s) k = ix2 k s := funext fun a => Fin.ext (by match a with | ⟨0, _⟩ => rfl | ⟨1, _⟩ => rfl)
theorem left_v15 (r : Fin 8192) (o : Fin 4096) (k : Fin 1024) : lidx_main_v15 (ix2 r o) k = ix2 r k := funext fun a => Fin.ext (by match a with | ⟨0, _⟩ => rfl | ⟨1, _⟩ => rfl)
theorem right_v15 (r : Fin 8192) (o : Fin 4096) (k : Fin 1024) : ridx_main_v15 (ix2 r o) k = ix2 k o := funext fun a => Fin.ext (by match a with | ⟨0, _⟩ => rfl | ⟨1, _⟩ => rfl)
theorem left_v28 (r : Fin 8192) (s : Fin 1024) (k : Fin 4096) : lidx_main_v28 (ix2 r s) k = ix2 r k := funext fun a => Fin.ext (by match a with | ⟨0, _⟩ => rfl | ⟨1, _⟩ => rfl)
theorem right_v28 (r : Fin 8192) (s : Fin 1024) (k : Fin 4096) : ridx_main_v28 (ix2 r s) k = ix2 k s := funext fun a => Fin.ext (by match a with | ⟨0, _⟩ => rfl | ⟨1, _⟩ => rfl)
theorem left_v32 (r : Fin 8192) (o : Fin 4096) (k : Fin 1024) : lidx_main_v32 (ix2 r o) k = ix2 r k := funext fun a => Fin.ext (by match a with | ⟨0, _⟩ => rfl | ⟨1, _⟩ => rfl)
theorem right_v32 (r : Fin 8192) (o : Fin 4096) (k : Fin 1024) : ridx_main_v32 (ix2 r o) k = ix2 k o := funext fun a => Fin.ext (by match a with | ⟨0, _⟩ => rfl | ⟨1, _⟩ => rfl)

/-! ## The main branch -/

/-- The scaled first contraction at entry (r, s). -/
theorem hidden_apply (x0 : (⟨S4x2048x4096, .f32⟩ : BufTy).Contents (Elt Ideal)) (x1 : (⟨S1024x4096, .f32⟩ : BufTy).Contents (Elt Ideal))
    (x3 : (⟨S1x4096, .f32⟩ : BufTy).Contents (Elt Ideal)) (x4 x5 : (⟨S1x1024, .f32⟩ : BufTy).Contents (Elt Ideal)) (r : Fin 8192) (s : Fin 1024) :
    val_main_v13 (F := Ideal) x0 x1 x3 x4 x5 (ix2 r s)
      = (∑ i : Fin 4096, (val_main_v0 (F := Ideal) x0 (ix2 r i) * x3 (ix2 0 i)) * val_main_v3 (F := Ideal) x1 (ix2 s i))
          * val_main_v7 (F := Ideal) x4 x5 (ix2 0 s) := by
  rw [val_main_v13_apply, val_main_v11_apply, val_main_v12_apply, row_v12]
  show _ * _ = _ * _
  refine congrArg₂ (· * ·) (Finset.sum_congr rfl fun i _ => ?_) rfl
  rw [val_main_v9_apply, val_main_v8_apply, val_main_v10_apply, left_v11, right_v11, swap_v10, row_v8]
  rfl

/-- The main branch at entry (r, o) is `branchRow` of row r of the input matrix. -/
theorem main_apply (x0 : (⟨S4x2048x4096, .f32⟩ : BufTy).Contents (Elt Ideal)) (x1 : (⟨S1024x4096, .f32⟩ : BufTy).Contents (Elt Ideal))
    (x2 : (⟨S4096x1024, .f32⟩ : BufTy).Contents (Elt Ideal)) (x3 : (⟨S1x4096, .f32⟩ : BufTy).Contents (Elt Ideal))
    (x4 x5 : (⟨S1x1024, .f32⟩ : BufTy).Contents (Elt Ideal)) (x6 : (⟨S1x4096, .f32⟩ : BufTy).Contents (Elt Ideal)) (r : Fin 8192) (o : Fin 4096) :
    val_main_v17 (F := Ideal) x0 x1 x2 x3 x4 x5 x6 (ix2 r o)
      = branchRow (fun i => val_main_v0 (F := Ideal) x0 (ix2 r i)) x3 (val_main_v3 (F := Ideal) x1) (val_main_v7 (F := Ideal) x4 x5)
          (val_main_v6 (F := Ideal) x2) x6 o := by
  rw [val_main_v17_apply, val_main_v15_apply, val_main_v16_apply, row_v16]
  show _ * _ = _ * _
  refine congrArg₂ (· * ·) (Finset.sum_congr rfl fun s _ => ?_) rfl
  rw [left_v15, right_v15, val_main_v14_apply, swap_v14, hidden_apply]

/-! ## The residual branch -/

/-- The scaled first contraction of the residual branch at entry (r, s). -/
theorem hiddenR_apply (x0 : (⟨S4x2048x4096, .f32⟩ : BufTy).Contents (Elt Ideal)) (x7 : (⟨S1024x4096, .f32⟩ : BufTy).Contents (Elt Ideal))
    (x9 : (⟨S1x4096, .f32⟩ : BufTy).Contents (Elt Ideal)) (x10 x11 : (⟨S1x1024, .f32⟩ : BufTy).Contents (Elt Ideal)) (r : Fin 8192) (s : Fin 1024) :
    val_main_v30 (F := Ideal) x0 x7 x9 x10 x11 (ix2 r s)
      = (∑ i : Fin 4096, (val_main_v0 (F := Ideal) x0 (ix2 r i) * x9 (ix2 0 i)) * val_main_v20 (F := Ideal) x7 (ix2 s i))
          * val_main_v24 (F := Ideal) x10 x11 (ix2 0 s) := by
  rw [val_main_v30_apply, val_main_v28_apply, val_main_v29_apply, row_v29]
  show _ * _ = _ * _
  refine congrArg₂ (· * ·) (Finset.sum_congr rfl fun i _ => ?_) rfl
  rw [val_main_v26_apply, val_main_v25_apply, val_main_v27_apply, left_v28, right_v28, swap_v27, row_v25]
  rfl

/-- The residual branch at entry (r, o) is `branchRow` of row r of the input matrix. -/
theorem resid_apply (x0 : (⟨S4x2048x4096, .f32⟩ : BufTy).Contents (Elt Ideal)) (x7 : (⟨S1024x4096, .f32⟩ : BufTy).Contents (Elt Ideal))
    (x8 : (⟨S4096x1024, .f32⟩ : BufTy).Contents (Elt Ideal)) (x9 : (⟨S1x4096, .f32⟩ : BufTy).Contents (Elt Ideal))
    (x10 x11 : (⟨S1x1024, .f32⟩ : BufTy).Contents (Elt Ideal)) (x12 : (⟨S1x4096, .f32⟩ : BufTy).Contents (Elt Ideal)) (r : Fin 8192) (o : Fin 4096) :
    val_main_v34 (F := Ideal) x0 x7 x8 x9 x10 x11 x12 (ix2 r o)
      = branchRow (fun i => val_main_v0 (F := Ideal) x0 (ix2 r i)) x9 (val_main_v20 (F := Ideal) x7) (val_main_v24 (F := Ideal) x10 x11)
          (val_main_v23 (F := Ideal) x8) x12 o := by
  rw [val_main_v34_apply, val_main_v32_apply, val_main_v33_apply, row_v33]
  show _ * _ = _ * _
  refine congrArg₂ (· * ·) (Finset.sum_congr rfl fun s _ => ?_) rfl
  rw [left_v32, right_v32, val_main_v31_apply, swap_v31, hiddenR_apply]

/-! ## The sum -/

/-- The reference's 8192 × 4096 matrix, before its last reshape, is `layer` of its stages: the input matrix reshaped,
    the two rows of scales multiplied, the four `a + (sign a − a)` matrices, the bias laid out as a row. -/
theorem result_eq_layer (x0 : (⟨S4x2048x4096, .f32⟩ : BufTy).Contents (Elt Ideal)) (x1 : (⟨S1024x4096, .f32⟩ : BufTy).Contents (Elt Ideal))
    (x2 : (⟨S4096x1024, .f32⟩ : BufTy).Contents (Elt Ideal)) (x3 : (⟨S1x4096, .f32⟩ : BufTy).Contents (Elt Ideal))
    (x4 x5 : (⟨S1x1024, .f32⟩ : BufTy).Contents (Elt Ideal)) (x6 : (⟨S1x4096, .f32⟩ : BufTy).Contents (Elt Ideal))
    (x7 : (⟨S1024x4096, .f32⟩ : BufTy).Contents (Elt Ideal)) (x8 : (⟨S4096x1024, .f32⟩ : BufTy).Contents (Elt Ideal))
    (x9 : (⟨S1x4096, .f32⟩ : BufTy).Contents (Elt Ideal)) (x10 x11 : (⟨S1x1024, .f32⟩ : BufTy).Contents (Elt Ideal))
    (x12 : (⟨S1x4096, .f32⟩ : BufTy).Contents (Elt Ideal)) (x13 : (⟨S4096, .f32⟩ : BufTy).Contents (Elt Ideal)) :
    val_main_v38 (F := Ideal) x0 x1 x2 x3 x4 x5 x6 x7 x8 x9 x10 x11 x12 x13
      = layer (val_main_v0 (F := Ideal) x0) x3 (val_main_v3 (F := Ideal) x1) (val_main_v7 (F := Ideal) x4 x5) (val_main_v6 (F := Ideal) x2) x6
          x9 (val_main_v20 (F := Ideal) x7) (val_main_v24 (F := Ideal) x10 x11) (val_main_v23 (F := Ideal) x8) x12
          (val_main_v36 (F := Ideal) x13) := by
  funext j
  obtain ⟨r, o, rfl⟩ : ∃ (r : Fin 8192) (o : Fin 4096), j = ix2 r o := ⟨j 0, j 1, eq_ix2 j⟩
  rw [val_main_v38_apply, val_main_v35_apply, val_main_v37_apply, row_v37, main_apply, resid_apply]
  rfl

end Cert.ReferenceIdeal.AsLayer

end
-- ==== Proof.KernelBody.lean ====
/-
  The kernel's body on one block of 128 rows. It loads the block `x` (128 × 4096), the two pairs of sign matrices and
  the seven rows, and stores, at entry (p, o) of the block,

      ( ∑ s, ((∑ i, (x (p,i) · v2 i) · Vq (s,i)) · w s) · Uq (o,s) ) · u1 o   +   (the same of the residual operands)   +   bias o.

  Each of its two kinds of matrix product contracts the SECOND axis of both operands into a zero accumulator, so its
  entry (p, s) is the sum over the shared index of products of row p of the left operand and row s of the right one.
  A change of float format is the identity on extended reals, a cast to the same shape is the identity, a row
  broadcast down the block reads the row at the same column. So row p of the stored block is `outRow` of row p of `x`.
-/
import proofs.«134688_j8615704396413_1_alg».proof.Proof.Gen.KernelIdeal.Skeleton
import proofs.«134688_j8615704396413_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LowRank

/-! ## The two kinds of matrix product

The operand indices of a product that contracts the second axis of both operands: the left operand is read at the
result's row and the contraction position, the right operand at the result's COLUMN and the contraction position. -/

theorem inputs_left_row (j : S128x1024.Idx) (q : dot_S128x4096_S1024x4096_S128x1024_1_1_0_0_n_n.contr.Idx) :
    (dot_S128x4096_S1024x4096_S128x1024_1_1_0_0_n_n.lhsIdx j q 0).val = (j 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
theorem inputs_left_col (j : S128x1024.Idx) (q : dot_S128x4096_S1024x4096_S128x1024_1_1_0_0_n_n.contr.Idx) :
    (dot_S128x4096_S1024x4096_S128x1024_1_1_0_0_n_n.lhsIdx j q 1).val = (q ⟨0, by decide⟩).val :=
  dot_S128x4096_S1024x4096_S128x1024_1_1_0_0_n_n.lhsIdx_val_of_single rfl j q
theorem inputs_right_row (j : S128x1024.Idx) (q : dot_S128x4096_S1024x4096_S128x1024_1_1_0_0_n_n.contr.Idx) :
    (dot_S128x4096_S1024x4096_S128x1024_1_1_0_0_n_n.rhsIdx j q 0).val = (j 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
theorem inputs_right_col (j : S128x1024.Idx) (q : dot_S128x4096_S1024x4096_S128x1024_1_1_0_0_n_n.contr.Idx) :
    (dot_S128x4096_S1024x4096_S128x1024_1_1_0_0_n_n.rhsIdx j q 1).val = (q ⟨0, by decide⟩).val :=
  dot_S128x4096_S1024x4096_S128x1024_1_1_0_0_n_n.rhsIdx_val_of_single rfl j q

theorem hidden_left_row (j : S128x4096.Idx) (q : dot_S128x1024_S4096x1024_S128x4096_1_1_0_0_n_n.contr.Idx) :
    (dot_S128x1024_S4096x1024_S128x4096_1_1_0_0_n_n.lhsIdx j q 0).val = (j 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem hidden_left_col (j : S128x4096.Idx) (q : dot_S128x1024_S4096x1024_S128x4096_1_1_0_0_n_n.contr.Idx) :
    (dot_S128x1024_S4096x1024_S128x4096_1_1_0_0_n_n.lhsIdx j q 1).val = (q ⟨0, by decide⟩).val :=
  dot_S128x1024_S4096x1024_S128x4096_1_1_0_0_n_n.lhsIdx_val_of_single rfl j q
theorem hidden_right_row (j : S128x4096.Idx) (q : dot_S128x1024_S4096x1024_S128x4096_1_1_0_0_n_n.contr.Idx) :
    (dot_S128x1024_S4096x1024_S128x4096_1_1_0_0_n_n.rhsIdx j q 0).val = (j 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem hidden_right_col (j : S128x4096.Idx) (q : dot_S128x1024_S4096x1024_S128x4096_1_1_0_0_n_n.contr.Idx) :
    (dot_S128x1024_S4096x1024_S128x4096_1_1_0_0_n_n.rhsIdx j q 1).val = (q ⟨0, by decide⟩).val :=
  dot_S128x1024_S4096x1024_S128x4096_1_1_0_0_n_n.rhsIdx_val_of_single rfl j q

/-- The first kind of product, [128, 4096] with [1024, 4096] along the second axis of both, into zero: entry (p, s) is the
    sum over k of row p of the left operand times row s of the right one. -/
theorem contract_inputs (A : FVec Ideal S128x4096 .bf16) (B : FVec Ideal S1024x4096 .bf16) (p : Fin 128) (s : Fin 1024) :
    matmul dot_S128x4096_S1024x4096_S128x1024_1_1_0_0_n_n none A B (constant (F := Ideal) S128x1024 .f32 0x00000000#32) (ix2 p s)
      = ∑ k : Fin 4096, A (ix2 p k) * B (ix2 s k) := by
  refine (Ideal.matmul_constant_zero_apply dot_S128x4096_S1024x4096_S128x1024_1_1_0_0_n_n none A B (ix2 p s)).trans ?_
  rw [← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 p s) ((contrEquiv1 dot_S128x4096_S1024x4096_S128x1024_1_1_0_0_n_n 4096 rfl rfl).symm k) = ix2 p k := funext fun a => Fin.ext (by
    match a with
    | ⟨0, _⟩ => exact inputs_left_row _ _
    | ⟨1, _⟩ => exact (inputs_left_col _ _).trans hk)
  have er : dot_S128x4096_S1024x4096_S128x1024_1_1_0_0_n_n.rhsIdx (ix2 p s) ((contrEquiv1 dot_S128x4096_S1024x4096_S128x1024_1_1_0_0_n_n 4096 rfl rfl).symm k) = ix2 s k := funext fun a => Fin.ext (by
    match a with
    | ⟨0, _⟩ => exact inputs_right_row _ _
    | ⟨1, _⟩ => exact (inputs_right_col _ _).trans hk)
  rw [el, er]

/-- The second kind of product, [128, 1024] with [4096, 1024] along the second axis of both, into zero: entry (p, o) is the
    sum over k of row p of the left operand times row o of the right one. -/
theorem contract_hidden (A : FVec Ideal S128x1024 .bf16) (B : FVec Ideal S4096x1024 .bf16) (p : Fin 128) (o : Fin 4096) :
    matmul dot_S128x1024_S4096x1024_S128x4096_1_1_0_0_n_n none A B (constant (F := Ideal) S128x4096 .f32 0x00000000#32) (ix2 p o)
      = ∑ k : Fin 1024, A (ix2 p k) * B (ix2 o k) := by
  refine (Ideal.matmul_constant_zero_apply dot_S128x1024_S4096x1024_S128x4096_1_1_0_0_n_n none A B (ix2 p o)).trans ?_
  rw [← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p o) ((contrEquiv1 dot_S128x1024_S4096x1024_S128x4096_1_1_0_0_n_n 1024 rfl rfl).symm k) = ix2 p k := funext fun a => Fin.ext (by
    match a with
    | ⟨0, _⟩ => exact hidden_left_row _ _
    | ⟨1, _⟩ => exact (hidden_left_col _ _).trans hk)
  have er : dot_S128x1024_S4096x1024_S128x4096_1_1_0_0_n_n.rhsIdx (ix2 p o) ((contrEquiv1 dot_S128x1024_S4096x1024_S128x4096_1_1_0_0_n_n 1024 rfl rfl).symm k) = ix2 o k := funext fun a => Fin.ext (by
    match a with
    | ⟨0, _⟩ => exact hidden_right_row _ _
    | ⟨1, _⟩ => exact (hidden_right_col _ _).trans hk)
  rw [el, er]

/-! ## Rows broadcast down a block -/

/-- A row of 4096 broadcast down the 128 rows of a block reads the row at the same column. -/
theorem rowDown_4096 (v : Vec Ideal S1x4096 .f32) (p : Fin 128) (q : Fin 4096) :
    broadcastTo S128x4096 v broadcasts_S1x4096_S128x4096 (ix2 p q) = v (ix2 0 q) :=
  broadcastTo_apply v broadcasts_S1x4096_S128x4096 (ix2 p q) (ix2 0 q) (fun a => by
    match a with
    | ⟨0, _⟩ => show 0 = if (1 : Nat) = 1 then 0 else _; rw [if_pos rfl]
    | ⟨1, _⟩ => show q.val = if (4096 : Nat) = 1 then 0 else q.val; rw [if_neg (by decide)])

/-- A row of 1024 broadcast down the 128 rows of a block reads the row at the same column. -/
theorem rowDown_1024 (v : Vec Ideal S1x1024 .f32) (p : Fin 128) (q : Fin 1024) :
    broadcastTo S128x1024 v broadcasts_S1x1024_S128x1024 (ix2 p q) = v (ix2 0 q) :=
  broadcastTo_apply v broadcasts_S1x1024_S128x1024 (ix2 p q) (ix2 0 q) (fun a => by
    match a with
    | ⟨0, _⟩ => show 0 = if (1 : Nat) = 1 then 0 else _; rw [if_pos rfl]
    | ⟨1, _⟩ => show q.val = if (1024 : Nat) = 1 then 0 else q.val; rw [if_neg (by decide)])

/-! ## The body's stored value at an entry -/

/-- The main branch's value, `%19`, at entry (p, o): `branchRow` of row p of the block. -/
theorem main_apply (x0 : Vec Ideal S128x4096 .f32) (v2 : Vec Ideal S1x4096 .f32) (Vq : Vec Ideal S1024x4096 .bf16)
    (w : Vec Ideal S1x1024 .f32) (Uq : Vec Ideal S4096x1024 .bf16) (u1 : Vec Ideal S1x4096 .f32) (p : Fin 128) (o : Fin 4096) :
    k0_pay3 x0 v2 Vq w Uq u1 (ix2 p o) = branchRow (fun i => x0 (ix2 p i)) v2 Vq w Uq u1 o := by
  unfold k0_pay3 k0_pay2 branchRow
  simp only [shapeCast_self]
  rw [mulf_apply, contract_hidden, rowDown_4096]
  refine congrArg₂ (· * ·) (Finset.sum_congr rfl fun s _ => ?_) rfl
  rw [truncf_apply, mulf_apply, contract_inputs, rowDown_1024]
  refine congrArg₂ (· * ·) (congrArg₂ (· * ·) (Finset.sum_congr rfl fun i _ => ?_) rfl) rfl
  rw [truncf_apply, mulf_apply, rowDown_4096]

/-- The residual branch's second product, `%34`, at entry (p, o): the branch before its last scaling. -/
theorem resid_apply (x0 : Vec Ideal S128x4096 .f32) (v2 : Vec Ideal S1x4096 .f32) (Vq : Vec Ideal S1024x4096 .bf16)
    (w : Vec Ideal S1x1024 .f32) (Uq : Vec Ideal S4096x1024 .bf16) (p : Fin 128) (o : Fin 4096) :
    k0_pay4 x0 v2 Vq w Uq (ix2 p o)
      = ∑ s : Fin 1024, ((∑ i : Fin 4096, (x0 (ix2 p i) * v2 (ix2 0 i)) * Vq (ix2 s i)) * w (ix2 0 s)) * Uq (ix2 o s) := by
  unfold k0_pay4 k0_pay2
  simp only [shapeCast_self]
  rw [contract_hidden]
  refine Finset.sum_congr rfl fun s _ => ?_
  rw [truncf_apply, mulf_apply, contract_inputs, rowDown_1024]
  refine congrArg₂ (· * ·) (congrArg₂ (· * ·) (Finset.sum_congr rfl fun i _ => ?_) rfl) rfl
  rw [truncf_apply, mulf_apply, rowDown_4096]

/-- THE STORED BLOCK at entry (p, o) is `outRow` of row p of the loaded block at column o. -/
theorem stored_apply (x0 : Vec Ideal S128x4096 .f32) (Vq : Vec Ideal S1024x4096 .bf16) (Uq : Vec Ideal S4096x1024 .bf16)
    (VqR : Vec Ideal S1024x4096 .bf16) (UqR : Vec Ideal S4096x1024 .bf16) (v2 : Vec Ideal S1x4096 .f32) (w : Vec Ideal S1x1024 .f32)
    (u1 : Vec Ideal S1x4096 .f32) (v2R : Vec Ideal S1x4096 .f32) (wR : Vec Ideal S1x1024 .f32) (u1R : Vec Ideal S1x4096 .f32)
    (bias : Vec Ideal S1x4096 .f32) (p : Fin 128) (o : Fin 4096) :
    k0_pay1 (k0_pay3 x0 v2 Vq w Uq u1) (k0_pay4 x0 v2R VqR wR UqR) u1R bias (ix2 p o)
      = outRow (fun i => x0 (ix2 p i)) v2 Vq w Uq u1 v2R VqR wR UqR u1R bias o := by
  unfold k0_pay1 outRow
  simp only [shapeCast_self]
  rw [addf_apply, addf_apply, mulf_apply, rowDown_4096, rowDown_4096, main_apply, resid_apply]
  rfl

end Cert.KernelIdeal.Body

end
-- ==== Proof.KernelBlocks.lean ====
/-
  The blocks the kernel is handed. The grid has 64 points; at point t the first window's block is rows 128·t … 128·t + 127
  of the 8192 × 4096 input matrix, and each of the other eleven operands is handed over whole (its index map is constant).
-/
import proofs.«134688_j8615704396413_1_alg».proof.Proof.Gen.KernelIdeal.Frame
import proofs.«134688_j8615704396413_1_alg».proof.Proof.KernelBody
import proofs.«134688_j8615704396413_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.LowRank

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the input matrix's block moves with the output's along the
    rows and neither moves along the columns; the other eleven operands' blocks never move. -/
theorem idx_facts : ∀ t : Fin cfg0.N, win0_0.index t (0 : Fin 2) = win0_12.index t (0 : Fin 2)
    ∧ win0_0.index t (1 : Fin 2) = 0
    ∧ win0_12.index t (1 : Fin 2) = 0
    ∧ win0_12.index t (0 : Fin 2) ≤ 63
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

/-- Every one of the 64 row blocks is some point's. -/
theorem idx_onto : ∀ q : Fin 64, ∃ t : Fin cfg0.N, win0_12.index t = ![q.val, 0] :=
  (by decide +kernel : ∀ q : Fin 64, ∃ t : Fin grid0.N, win0_12.index t = ![q.val, 0])

/-! ## The eleven operands handed over whole -/

theorem whole_1 (c : Dev nD) (t : Fin cfg0.N) : (iblk m c 1 t : Vec Ideal S1024x4096 .bf16) = V m c main_v2 := by
  funext y
  unfold iblk
  rw [View.read_apply]
  show V m c main_v2 _ = V m c main_v2 y
  congr 1
  funext a
  apply Fin.ext
  have h0 : win0_1.index t (0 : Fin 2) = 0 := (idx_facts t).2.2.2.2.1
  have h1 : win0_1.index t (1 : Fin 2) = 0 := (idx_facts t).2.2.2.2.2.1
  match a with
  | ⟨0, _⟩ => show win0_1.index t (0 : Fin 2) * 1024 + 1 * (y 0).val = (y 0).val; omega
  | ⟨1, _⟩ => show win0_1.index t (1 : Fin 2) * 4096 + 1 * (y 1).val = (y 1).val; omega

theorem whole_2 (c : Dev nD) (t : Fin cfg0.N) : (iblk m c 2 t : Vec Ideal S4096x1024 .bf16) = V m c main_v4 := by
  funext y
  unfold iblk
  rw [View.read_apply]
  show V m c main_v4 _ = V m c main_v4 y
  congr 1
  funext a
  apply Fin.ext
  have h0 : win0_2.index t (0 : Fin 2) = 0 := (idx_facts t).2.2.2.2.2.2.1
  have h1 : win0_2.index t (1 : Fin 2) = 0 := (idx_facts t).2.2.2.2.2.2.2.1
  match a with
  | ⟨0, _⟩ => show win0_2.index t (0 : Fin 2) * 4096 + 1 * (y 0).val = (y 0).val; omega
  | ⟨1, _⟩ => show win0_2.index t (1 : Fin 2) * 1024 + 1 * (y 1).val = (y 1).val; omega

theorem whole_3 (c : Dev nD) (t : Fin cfg0.N) : (iblk m c 3 t : Vec Ideal S1024x4096 .bf16) = V m c main_v6 := by
  funext y
  unfold iblk
  rw [View.read_apply]
  show V m c main_v6 _ = V m c main_v6 y
  congr 1
  funext a
  apply Fin.ext
  have h0 : win0_3.index t (0 : Fin 2) = 0 := (idx_facts t).2.2.2.2.2.2.2.2.1
  have h1 : win0_3.index t (1 : Fin 2) = 0 := (idx_facts t).2.2.2.2.2.2.2.2.2.1
  match a with
  | ⟨0, _⟩ => show win0_3.index t (0 : Fin 2) * 1024 + 1 * (y 0).val = (y 0).val; omega
  | ⟨1, _⟩ => show win0_3.index t (1 : Fin 2) * 4096 + 1 * (y 1).val = (y 1).val; omega

theorem whole_4 (c : Dev nD) (t : Fin cfg0.N) : (iblk m c 4 t : Vec Ideal S4096x1024 .bf16) = V m c main_v8 := by
  funext y
  unfold iblk
  rw [View.read_apply]
  show V m c main_v8 _ = V m c main_v8 y
  congr 1
  funext a
  apply Fin.ext
  have h0 : win0_4.index t (0 : Fin 2) = 0 := (idx_facts t).2.2.2.2.2.2.2.2.2.2.1
  have h1 : win0_4.index t (1 : Fin 2) = 0 := (idx_facts t).2.2.2.2.2.2.2.2.2.2.2.1
  match a with
  | ⟨0, _⟩ => show win0_4.index t (0 : Fin 2) * 4096 + 1 * (y 0).val = (y 0).val; omega
  | ⟨1, _⟩ => show win0_4.index t (1 : Fin 2) * 1024 + 1 * (y 1).val = (y 1).val; omega

theorem whole_5 (c : Dev nD) (t : Fin cfg0.N) : (iblk m c 5 t : Vec Ideal S1x4096 .f32) = V m c main_arg3 := by
  funext y
  unfold iblk
  rw [View.read_apply]
  show V m c main_arg3 _ = V m c main_arg3 y
  congr 1
  funext a
  apply Fin.ext
  have h0 : win0_5.index t (0 : Fin 2) = 0 := (idx_facts t).2.2.2.2.2.2.2.2.2.2.2.2.1
  have h1 : win0_5.index t (1 : Fin 2) = 0 := (idx_facts t).2.2.2.2.2.2.2.2.2.2.2.2.2.1
  match a with
  | ⟨0, _⟩ => show win0_5.index t (0 : Fin 2) * 1 + 1 * (y 0).val = (y 0).val; omega
  | ⟨1, _⟩ => show win0_5.index t (1 : Fin 2) * 4096 + 1 * (y 1).val = (y 1).val; omega

theorem whole_6 (c : Dev nD) (t : Fin cfg0.N) : (iblk m c 6 t : Vec Ideal S1x1024 .f32) = V m c main_v9 := by
  funext y
  unfold iblk
  rw [View.read_apply]
  show V m c main_v9 _ = V m c main_v9 y
  congr 1
  funext a
  apply Fin.ext
  have h0 : win0_6.index t (0 : Fin 2) = 0 := (idx_facts t).2.2.2.2.2.2.2.2.2.2.2.2.2.2.1
  have h1 : win0_6.index t (1 : Fin 2) = 0 := (idx_facts t).2.2.2.2.2.2.2.2.2.2.2.2.2.2.2.1
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem whole_7 (c : Dev nD) (t : Fin cfg0.N) : (iblk m c 7 t : Vec Ideal S1x4096 .f32) = V m c main_arg6 := by
  funext y
  unfold iblk
  rw [View.read_apply]
  show V m c main_arg6 _ = V m c main_arg6 y
  congr 1
  funext a
  apply Fin.ext
  have h0 : win0_7.index t (0 : Fin 2) = 0 := (idx_facts t).2.2.2.2.2.2.2.2.2.2.2.2.2.2.2.2.1
  have h1 : win0_7.index t (1 : Fin 2) = 0 := (idx_facts t).2.2.2.2.2.2.2.2.2.2.2.2.2.2.2.2.2.1
  match a with
  | ⟨0, _⟩ => show win0_7.index t (0 : Fin 2) * 1 + 1 * (y 0).val = (y 0).val; omega
  | ⟨1, _⟩ => show win0_7.index t (1 : Fin 2) * 4096 + 1 * (y 1).val = (y 1).val; omega

theorem whole_8 (c : Dev nD) (t : Fin cfg0.N) : (iblk m c 8 t : Vec Ideal S1x4096 .f32) = V m c main_arg9 := by
  funext y
  unfold iblk
  rw [View.read_apply]
  show V m c main_arg9 _ = V m c main_arg9 y
  congr 1
  funext a
  apply Fin.ext
  have h0 : win0_8.index t (0 : Fin 2) = 0 := (idx_facts t).2.2.2.2.2.2.2.2.2.2.2.2.2.2.2.2.2.2.1
  have h1 : win0_8.index t (1 : Fin 2) = 0 := (idx_facts t).2.2.2.2.2.2.2.2.2.2.2.2.2.2.2.2.2.2.2.1
  match a with
  | ⟨0, _⟩ => show win0_8.index t (0 : Fin 2) * 1 + 1 * (y 0).val = (y 0).val; omega
  | ⟨1, _⟩ => show win0_8.index t (1 : Fin 2) * 4096 + 1 * (y 1).val = (y 1).val; omega

theorem whole_9 (c : Dev nD) (t : Fin cfg0.N) : (iblk m c 9 t : Vec Ideal S1x1024 .f32) = V m c main_v10 := by
  funext y
  unfold iblk
  rw [View.read_apply]
  show V m c main_v10 _ = V m c main_v10 y
  congr 1
  funext a
  apply Fin.ext
  have h0 : win0_9.index t (0 : Fin 2) = 0 := (idx_facts t).2.2.2.2.2.2.2.2.2.2.2.2.2.2.2.2.2.2.2.2.1
  have h1 : win0_9.index t (1 : Fin 2) = 0 := (idx_facts t).2.2.2.2.2.2.2.2.2.2.2.2.2.2.2.2.2.2.2.2.2.1
  match a with
  | ⟨0, _⟩ => show win0_9.index t (0 : Fin 2) * 1 + 1 * (y 0).val = (y 0).val; omega
  | ⟨1, _⟩ => show win0_9.index t (1 : Fin 2) * 1024 + 1 * (y 1).val = (y 1).val; omega

theorem whole_10 (c : Dev nD) (t : Fin cfg0.N) : (iblk m c 10 t : Vec Ideal S1x4096 .f32) = V m c main_arg12 := by
  funext y
  unfold iblk
  rw [View.read_apply]
  show V m c main_arg12 _ = V m c main_arg12 y
  congr 1
  funext a
  apply Fin.ext
  have h0 : win0_10.index t (0 : Fin 2) = 0 := (idx_facts t).2.2.2.2.2.2.2.2.2.2.2.2.2.2.2.2.2.2.2.2.2.2.1
  have h1 : win0_10.index t (1 : Fin 2) = 0 := (idx_facts t).2.2.2.2.2.2.2.2.2.2.2.2.2.2.2.2.2.2.2.2.2.2.2.1
  match a with
  | ⟨0, _⟩ => show win0_10.index t (0 : Fin 2) * 1 + 1 * (y 0).val = (y 0).val; omega
  | ⟨1, _⟩ => show win0_10.index t (1 : Fin 2) * 4096 + 1 * (y 1).val = (y 1).val; omega

theorem whole_11 (c : Dev nD) (t : Fin cfg0.N) : (iblk m c 11 t : Vec Ideal S1x4096 .f32) = V m c main_v11 := by
  funext y
  unfold iblk
  rw [View.read_apply]
  show V m c main_v11 _ = V m c main_v11 y
  congr 1
  funext a
  apply Fin.ext
  have h0 : win0_11.index t (0 : Fin 2) = 0 := (idx_facts t).2.2.2.2.2.2.2.2.2.2.2.2.2.2.2.2.2.2.2.2.2.2.2.2.1
  have h1 : win0_11.index t (1 : Fin 2) = 0 := (idx_facts t).2.2.2.2.2.2.2.2.2.2.2.2.2.2.2.2.2.2.2.2.2.2.2.2.2
  match a with
  | ⟨0, _⟩ => show win0_11.index t (0 : Fin 2) * 1 + 1 * (y 0).val = (y 0).val; omega
  | ⟨1, _⟩ => show win0_11.index t (1 : Fin 2) * 4096 + 1 * (y 1).val = (y 1).val; omega

/-! ## The input matrix's block -/

/-- Row p of the input block at point t is row `128 · (the output's block row) + p` of the input matrix. -/
theorem rows_0 (c : Dev nD) (t : Fin cfg0.N) (p : Fin 128) (i : Fin 4096) (r : Fin 8192)
    (hr : r.val = win0_12.index t (0 : Fin 2) * 128 + p.val) :
    (iblk m c 0 t : Vec Ideal S128x4096 .f32) (ix2 p i) = V m c main_v0 (ix2 r i) := by
  unfold iblk
  rw [View.read_apply]
  show V m c main_v0 _ = V m c main_v0 (ix2 r i)
  congr 1
  funext a
  apply Fin.ext
  have h0 := (idx_facts t).1
  have h1 := (idx_facts t).2.1
  match a with
  | ⟨0, _⟩ => show win0_0.index t (0 : Fin 2) * 128 + 1 * p.val = r.val; omega
  | ⟨1, _⟩ => show win0_0.index t (1 : Fin 2) * 4096 + 1 * i.val = i.val; omega

end Cert.KernelIdeal.Blocks

end
-- ==== Proof.KernelArray.lean ====
/-
  From blocks to the array. At point t the kernel writes back rows 128·t … 128·t + 127 of the output. Since a row of
  `layer` depends on the same row of the input matrix only, what point t writes back is block t of `layer` of the whole
  arrays; the 64 blocks tile the 8192 rows, so the output array ends holding `layer`.
-/
import proofs.«134688_j8615704396413_1_alg».proof.Proof.KernelBlocks

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.LowRank

variable (m : (ℓ : Loc nD τ sig) → Buf (Elt Ideal) ℓ) (ρ : Dev nD → PrngReg)

/-! ## What one point writes back, the cover, the array -/

/-- `layer` of the arrays as the region finds them: the reshaped input matrix, the four sign matrices, the two products
    of scale rows, the bias as a row, and the four scale rows that are arguments. -/
abbrev atEntry (c : Dev nD) : Mat 8192 4096 :=
  layer (V m c main_v0) (V m c main_arg3) (V m c main_v2) (V m c main_v9) (V m c main_v4) (V m c main_arg6)
    (V m c main_arg9) (V m c main_v6) (V m c main_v10) (V m c main_v8) (V m c main_arg12) (V m c main_v11)

/-- Row r of `atEntry` is `outRow` of row r of the input matrix. -/
theorem atEntry_apply (c : Dev nD) (r : Fin 8192) (o : Fin 4096) :
    atEntry m c (ix2 r o) = outRow (fun i => V m c main_v0 (ix2 r i)) (V m c main_arg3) (V m c main_v2) (V m c main_v9) (V m c main_v4) (V m c main_arg6)
      (V m c main_arg9) (V m c main_v6) (V m c main_v10) (V m c main_v8) (V m c main_arg12) (V m c main_v11) o := rfl

/-- WHAT POINT t WRITES BACK is block t of `atEntry`: rows 128·t … 128·t + 127 of `layer`. -/
theorem flushed_eq (c : Dev nD) (t : Fin cfg0.N) :
    (dats m 0 c).flushed 12 t = ((cfg0.win 12).blk t).view.read (Elt Ideal) (atEntry m c) := by
  show (cfg0.win 12).cut (grid0.coords t) ((dats m 0 c).after 12 t) = _
  rw [after0_12]
  unfold out0_12
  rw [View.canon_unit_zero hz]
  simp only [View.ld_unit_zero (S := S128x4096) hz, View.ld_unit_zero (S := S1x4096) hz, View.ld_unit_zero (S := S1024x4096) hz,
    View.ld_unit_zero (S := S1x1024) hz, View.ld_unit_zero (S := S4096x1024) hz]
  funext y
  obtain ⟨p, o, rfl⟩ : ∃ (p : Fin 128) (o : Fin 4096), y = ix2 p o := ⟨y 0, y 1, eq_ix2 y⟩
  have hb : win0_12.index t (0 : Fin 2) ≤ 63 := (idx_facts t).2.2.2.1
  have h1 : win0_12.index t (1 : Fin 2) = 0 := (idx_facts t).2.2.1
  have hp : p.val < 128 := p.isLt
  obtain ⟨r, hr⟩ : ∃ r : Fin 8192, r.val = win0_12.index t (0 : Fin 2) * 128 + p.val :=
    ⟨⟨win0_12.index t (0 : Fin 2) * 128 + p.val, by omega⟩, rfl⟩
  have he : ((cfg0.win 12).blk t).view.emb (ix2 p o) = ix2 r o := by
    funext a
    apply Fin.ext
    match a with
    | ⟨0, _⟩ => show win0_12.index t (0 : Fin 2) * 128 + 1 * p.val = r.val; omega
    | ⟨1, _⟩ => show win0_12.index t (1 : Fin 2) * 4096 + 1 * o.val = o.val; omega
  rw [View.read_apply, he]
  show k0_pay1 (k0_pay3 (iblk m c 0 t) (iblk m c 5 t) (iblk m c 1 t) (iblk m c 6 t) (iblk m c 2 t) (iblk m c 7 t))
      (k0_pay4 (iblk m c 0 t) (iblk m c 8 t) (iblk m c 3 t) (iblk m c 9 t) (iblk m c 4 t)) (iblk m c 10 t) (iblk m c 11 t) (ix2 p o) = _
  refine (Body.stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p o).trans ?_
  rw [whole_1, whole_2, whole_3, whole_4, whole_5, whole_6, whole_7, whole_8, whole_9, whole_10, whole_11]
  refine Eq.trans ?_ (atEntry_apply m c r o).symm
  refine congrArg (fun x => outRow x (V m c main_arg3) (V m c main_v2) (V m c main_v9) (V m c main_v4) (V m c main_arg6)
      (V m c main_arg9) (V m c main_v6) (V m c main_v10) (V m c main_v8) (V m c main_arg12) (V m c main_v11) o) ?_
  funext i
  exact rows_0 m c t p i r hr

/-- An index of the output array is in point t's block iff each coordinate is in the block's range on its axis. -/
theorem mem_blk (t : Fin cfg0.N) (i : S8192x4096.Idx) :
    i ∈ ((cfg0.win 12).blk t).view.set ↔ ∀ a : Fin 2, win0_12.index t a * S128x4096.size a ≤ (i a).val ∧ (i a).val < win0_12.index t a * S128x4096.size a + S128x4096.size a := by
  show i ∈ ((View.whole main_v12).slice (win0_12.rect t)).set ↔ _
  rw [View.set_slice_whole, Rect.mem_set_unit]
  exact Iff.rfl

/-- The 64 blocks tile the array: row r is in the block of the point whose block row is r / 128. -/
theorem cover (i : S8192x4096.Idx) : ∃ t : Fin cfg0.N, (cfg0.win 12).flush t = true ∧ i ∈ ((cfg0.win 12).blk t).view.set := by
  have hi0 : (i 0).val < 8192 := (i 0).isLt
  have hi1 : (i 1).val < 4096 := (i 1).isLt
  obtain ⟨t, ht⟩ := idx_onto ⟨(i 0).val / 128, by omega⟩
  have q0 : win0_12.index t (0 : Fin 2) = (i 0).val / 128 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 4096 ≤ (i 1).val ∧ (i 1).val < win0_12.index t (1 : Fin 2) * 4096 + 4096; omega

/-- THE OUTPUT ARRAY after the region holds `atEntry`. -/
theorem final (c : Dev nD) : (dats m 0 c).arrAt 12 cfg0.N = atEntry m c :=
  (dats m 0 c).arrAt_eq_of_cover 12 (atEntry m c) (fun t _ => flushed_eq m c t) cover

end Cert.KernelIdeal.Blocks

end
-- ==== Proof.KernelRun.lean ====
/-
  The kernel's run, read. Before the region the host reshapes the input to 8192 × 4096, takes the signs of the four weight
  matrices (and changes their format, which is the identity on extended reals), multiplies the two pairs of scale rows and
  lays the bias out as a row; after it, it reshapes the 8192 × 4096 output to 4 × 2048 × 4096. So the result buffer ends at
  the reshape of `layer` of those arrays, and the arguments end as they started.
-/
import proofs.«134688_j8615704396413_1_alg».proof.Proof.KernelArray

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.LowRank Idealize.ShloMosaic.StableHlo

variable (m : (ℓ : Loc nD τ sig) → Buf (Elt Ideal) ℓ) (ρ : Dev nD → PrngReg)

/-! ## What the host wrote before the region -/

theorem entry_v0 (c : Dev nD) :
    (V m c main_v0 : S8192x4096.Idx → EReal) = shapeCast _ (m ((c.tc : Thread nD τ).loc main_arg0)) Facts₀.shapeCasts_S4x2048x4096_S8192x4096 := by
  show StableHlo.after hostOps0 (fun b => m (c, b)) (Proc.devRef .tc main_v0) = _
  after_results
  rfl

theorem entry_v2 (c : Dev nD) :
    (V m c main_v2 : S1024x4096.Idx → EReal) = truncf (F := Ideal) .bf16 (Host.sign (F := Ideal) (m ((c.tc : Thread nD τ).loc main_arg1))) Facts₀.bitsLt_bf16_f32 := by
  show StableHlo.after hostOps0 (fun b => m (c, b)) (Proc.devRef .tc main_v2) = _
  after_results

theorem entry_v4 (c : Dev nD) :
    (V m c main_v4 : S4096x1024.Idx → EReal) = truncf (F := Ideal) .bf16 (Host.sign (F := Ideal) (m ((c.tc : Thread nD τ).loc main_arg2))) Facts₀.bitsLt_bf16_f32 := by
  show StableHlo.after hostOps0 (fun b => m (c, b)) (Proc.devRef .tc main_v4) = _
  after_results

theorem entry_v6 (c : Dev nD) :
    (V m c main_v6 : S1024x4096.Idx → EReal) = truncf (F := Ideal) .bf16 (Host.sign (F := Ideal) (m ((c.tc : Thread nD τ).loc main_arg7))) Facts₀.bitsLt_bf16_f32 := by
  show StableHlo.after hostOps0 (fun b => m (c, b)) (Proc.devRef .tc main_v6) = _
  after_results

theorem entry_v8 (c : Dev nD) :
    (V m c main_v8 : S4096x1024.Idx → EReal) = truncf (F := Ideal) .bf16 (Host.sign (F := Ideal) (m ((c.tc : Thread nD τ).loc main_arg8))) Facts₀.bitsLt_bf16_f32 := by
  show StableHlo.after hostOps0 (fun b => m (c, b)) (Proc.devRef .tc main_v8) = _
  after_results

theorem entry_v9 (c : Dev nD) :
    (V m c main_v9 : S1x1024.Idx → EReal) = mulf (F := Ideal) (s := S1x1024) (φ := .f32) (m ((c.tc : Thread nD τ).loc main_arg4)) (m ((c.tc : Thread nD τ).loc main_arg5)) := by
  show StableHlo.after hostOps0 (fun b => m (c, b)) (Proc.devRef .tc main_v9) = _
  after_results

theorem entry_v10 (c : Dev nD) :
    (V m c main_v10 : S1x1024.Idx → EReal) = mulf (F := Ideal) (s := S1x1024) (φ := .f32) (m ((c.tc : Thread nD τ).loc main_arg10)) (m ((c.tc : Thread nD τ).loc main_arg11)) := by
  show StableHlo.after hostOps0 (fun b => m (c, b)) (Proc.devRef .tc main_v10) = _
  after_results

theorem entry_v11 (c : Dev nD) :
    (V m c main_v11 : S1x4096.Idx → EReal) = shapeCast _ (m ((c.tc : Thread nD τ).loc main_arg13)) Facts₀.shapeCasts_S4096_S1x4096 := by
  show StableHlo.after hostOps0 (fun b => m (c, b)) (Proc.devRef .tc main_v11) = _
  after_results
  rfl

/-! ## The reshape after the region -/

/-- The result buffer after the last host line: the output array reshaped. -/
theorem tail_eq (c : Dev nD) :
    Pipeline.afterTail₀ cfgs (dats m) 0 (V0 m) [hostOps1] c main_v13
      = shapeCast _ (atEntry m c) Facts₀.shapeCasts_S8192x4096_S4x2048x4096 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12) = atEntry m c :=
    (Pipeline.withArrays_arr spec0 launch0.win.arr_inj c _ _ 12).trans (final m c)
  rw [e]
  rfl

/-! ## The run -/

/-- Every weakly fair execution of the kernel's program terminates with the result buffer at the reshaped `layer` and the
    fourteen arguments unchanged. -/
theorem run : θ_run defs (onTc (τ := τ) (main (F := Ideal))) ⟨m, fun _ => 0, ρ⟩ fun r => ∀ c : Dev nD,
      r.2.mem ((c.tc : Thread nD τ).loc main_v13) = shapeCast _ (atEntry m c) Facts₀.shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).1 10).trans (((dats m 0 c).arrAt_in 10 rfl _).trans ((A_eq m c 10).trans (V_main_arg12 m c))),
      ((h c).2 main_arg13 (Pipeline.mem_restRefs_of main_arg13 (by decide) (by decide))).trans (W_main_arg13 m (dats m) c)⟩)
    (run_main m ρ)

end Cert.KernelIdeal.Blocks

end
-- ==== Proof.Finite.lean ====
/-
  What the precondition gives. `finite_inputs` is the conjunction, over the fourteen inputs, of "every entry's absolute
  value is below +∞". An extended real with `max x (−x) < ⊤` is neither ⊤ nor ⊥, so it is a real number. Only the four
  matrices whose signs are taken are needed: for them `a + (sign a − a) = sign a` holds entry by entry on real entries
  and fails at an infinite one.
-/
import proofs.«134688_j8615704396413_1_alg».proof.Pre_finite_inputs
import proofs.«134688_j8615704396413_1_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value compares below +∞ is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [Ideal.cmpf_def, Ideal.absf_def, inf_word] at h
  induction x using EReal.rec with
  | bot => exact absurd h (by simp [Ideal.cmp])
  | top => exact absurd h (by simp [Ideal.cmp])
  | coe r => exact ⟨r, rfl⟩

/-- One input's conjunct: all of its entries' absolute values are below +∞, so all of its entries are real. -/
theorem real_1024x4096 (a : FVec Ideal S1024x4096 .f32)
    (h : Host.reduce IntOp.andi (cmpf .olt (Host.absf a) (broadcastInDim S1024x4096 ![] Facts.bcast_S_S1024x4096 (constant (F := Ideal) S_ .f32 0x7F800000#32)))
      (constantI S_ 1 1#1) Facts.reducesTo_S1024x4096_S_d0_1 Facts.h_S_ ix0 = 1#1) (i : S1024x4096.Idx) : ∃ r : ℝ, a i = (r : EReal) :=
  real_of_abs_lt (a i) (Host.reduce_andi_all _ _ _ _ _ h i)

/-- One input's conjunct: all of its entries' absolute values are below +∞, so all of its entries are real. -/
theorem real_4096x1024 (a : FVec Ideal S4096x1024 .f32)
    (h : Host.reduce IntOp.andi (cmpf .olt (Host.absf a) (broadcastInDim S4096x1024 ![] Facts.bcast_S_S4096x1024 (constant (F := Ideal) S_ .f32 0x7F800000#32)))
      (constantI S_ 1 1#1) Facts.reducesTo_S4096x1024_S_d0_1 Facts.h_S_ ix0 = 1#1) (i : S4096x1024.Idx) : ∃ r : ℝ, a i = (r : EReal) :=
  real_of_abs_lt (a i) (Host.reduce_andi_all _ _ _ _ _ h i)

/-- THE FOUR SIGN-TAKEN MATRICES ARE REAL under the precondition. -/
theorem real_of_pre (a0 : FVec Ideal S4x2048x4096 .f32) (a1 : FVec Ideal S1024x4096 .f32) (a2 : FVec Ideal S4096x1024 .f32)
    (a3 : FVec Ideal S1x4096 .f32) (a4 a5 : FVec Ideal S1x1024 .f32) (a6 : FVec Ideal S1x4096 .f32)
    (a7 : FVec Ideal S1024x4096 .f32) (a8 : FVec Ideal S4096x1024 .f32) (a9 : FVec Ideal S1x4096 .f32)
    (a10 a11 : FVec Ideal S1x1024 .f32) (a12 : FVec Ideal S1x4096 .f32) (a13 : FVec Ideal S4096 .f32)
    (h : fn (F := Ideal) a0 a1 a2 a3 a4 a5 a6 a7 a8 a9 a10 a11 a12 a13 = fun _ => 1#1) :
    (∀ i, ∃ r : ℝ, a1 i = (r : EReal)) ∧ (∀ i, ∃ r : ℝ, a2 i = (r : EReal))
      ∧ (∀ i, ∃ r : ℝ, a7 i = (r : EReal)) ∧ (∀ i, ∃ r : ℝ, a8 i = (r : EReal)) := by
  have h0 := congrFun h ix0
  dsimp only [fn, fn_part1, fn_part2, fn_part3, fn_part4] at h0
  obtain ⟨h0, -⟩ := IntOp.andi_eq_one.1 h0   -- input 13
  obtain ⟨h0, -⟩ := IntOp.andi_eq_one.1 h0   -- input 12
  obtain ⟨h0, -⟩ := IntOp.andi_eq_one.1 h0   -- input 11
  obtain ⟨h0, -⟩ := IntOp.andi_eq_one.1 h0   -- input 10
  obtain ⟨h0, -⟩ := IntOp.andi_eq_one.1 h0   -- input 9
  obtain ⟨h0, h8⟩ := IntOp.andi_eq_one.1 h0  -- input 8
  obtain ⟨h0, h7⟩ := IntOp.andi_eq_one.1 h0  -- input 7
  obtain ⟨h0, -⟩ := IntOp.andi_eq_one.1 h0   -- input 6
  obtain ⟨h0, -⟩ := IntOp.andi_eq_one.1 h0   -- input 5
  obtain ⟨h0, -⟩ := IntOp.andi_eq_one.1 h0   -- input 4
  obtain ⟨h0, -⟩ := IntOp.andi_eq_one.1 h0   -- input 3
  obtain ⟨h0, h2⟩ := IntOp.andi_eq_one.1 h0  -- input 2
  obtain ⟨-, h1⟩ := IntOp.andi_eq_one.1 h0   -- inputs 0 and 1
  exact ⟨real_1024x4096 a1 h1, real_4096x1024 a2 h2, real_1024x4096 a7 h7, real_4096x1024 a8 h8⟩

end Cert.Pre_finite_inputs.Decode

end
-- ==== Proof.Bridge.lean ====
/-
  The two sides are one function. The kernel's result is the reshape of `layer` of: the input reshaped to 8192 × 4096,
  `sign V`, `sign U`, `sign V_R`, `sign U_R`, the products `v1 · u2` and `v1_R · u2_R`, the bias reshaped to a row, and the four
  scale rows. The reference's result is the same reshape of `layer` of the same arrays, except that it forms
  `V + (sign V − V)` where the kernel has `sign V`, and lays the bias out by a broadcast where the kernel reshapes it. A
  bias of 4096 entries reshaped to 1 × 4096 and the same bias broadcast to 1 × 4096 both hold entry k at (0, k). Under the
  precondition the four weight matrices are real, so `V + (sign V − V) = sign V` entry by entry.
-/
import proofs.«134688_j8615704396413_1_alg».proof.Proof.RefLayer
import proofs.«134688_j8615704396413_1_alg».proof.Proof.KernelRun
import proofs.«134688_j8615704396413_1_alg».proof.Proof.Finite
import proofs.«134688_j8615704396413_1_alg».proof.Defs

set_option maxRecDepth 16384

noncomputable section

open Idealize.ShloMosaic Idealize.ShloMosaic.TcCoe Idealize.SL.Sem

namespace Cert.Bridge

open Idealize.ShloMosaic.ValueIdx Cert.LowRank

/-- On a 1024 × 4096 matrix of real entries the reference's `a + (sign a − a)` is the kernel's `sign a` (after its
    change of format, the identity). -/
theorem quantized_1024x4096 (a : FVec Ideal Cert.ReferenceIdeal.S1024x4096 .f32) (h : ∀ i, ∃ r : ℝ, a i = (r : EReal)) :
    Cert.ReferenceIdeal.Read.val_main_v3 (F := Ideal) a = truncf .bf16 (Host.sign a) Cert.KernelIdeal.Facts₀.bitsLt_bf16_f32 := by
  funext i
  obtain ⟨r, hr⟩ := h i
  show a i + (Ideal.sign (a i) - a i) = Ideal.sign (a i)
  rw [hr]
  exact quantize_real r

theorem quantized_4096x1024 (a : FVec Ideal Cert.ReferenceIdeal.S4096x1024 .f32) (h : ∀ i, ∃ r : ℝ, a i = (r : EReal)) :
    Cert.ReferenceIdeal.Read.val_main_v6 (F := Ideal) a = truncf .bf16 (Host.sign a) Cert.KernelIdeal.Facts₀.bitsLt_bf16_f32 := by
  funext i
  obtain ⟨r, hr⟩ := h i
  show a i + (Ideal.sign (a i) - a i) = Ideal.sign (a i)
  rw [hr]
  exact quantize_real r

theorem quantizedR_1024x4096 (a : FVec Ideal Cert.ReferenceIdeal.S1024x4096 .f32) (h : ∀ i, ∃ r : ℝ, a i = (r : EReal)) :
    Cert.ReferenceIdeal.Read.val_main_v20 (F := Ideal) a = truncf .bf16 (Host.sign a) Cert.KernelIdeal.Facts₀.bitsLt_bf16_f32 := by
  funext i
  obtain ⟨r, hr⟩ := h i
  show a i + (Ideal.sign (a i) - a i) = Ideal.sign (a i)
  rw [hr]
  exact quantize_real r

theorem quantizedR_4096x1024 (a : FVec Ideal Cert.ReferenceIdeal.S4096x1024 .f32) (h : ∀ i, ∃ r : ℝ, a i = (r : EReal)) :
    Cert.ReferenceIdeal.Read.val_main_v23 (F := Ideal) a = truncf .bf16 (Host.sign a) Cert.KernelIdeal.Facts₀.bitsLt_bf16_f32 := by
  funext i
  obtain ⟨r, hr⟩ := h i
  show a i + (Ideal.sign (a i) - a i) = Ideal.sign (a i)
  rw [hr]
  exact quantize_real r

/-- The bias broadcast to a row is the bias reshaped to a row. -/
theorem bias_row (b : FVec Ideal Cert.ReferenceIdeal.S4096 .f32) :
    Cert.ReferenceIdeal.Read.val_main_v36 (F := Ideal) b = shapeCast Cert.KernelIdeal.S1x4096 b Cert.KernelIdeal.Facts₀.shapeCasts_S4096_S1x4096 := by
  funext i
  rw [Cert.ReferenceIdeal.Read.val_main_v36_apply]
  refine (shapeCast_apply b Cert.KernelIdeal.Facts₀.shapeCasts_S4096_S1x4096 i (Cert.ReferenceIdeal.Read.idx_main_v36 i) ?_).symm
  rw [Shape.rowMajor_val_one, Shape.rowMajor_val_two]
  have h0 : (i 0).val < 1 := (i 0).isLt
  show (i 1).val = (i 0).val * 4096 + (i 1).val
  omega

/-- THE TWO 8192 × 4096 MATRICES ARE ONE, under the precondition: the reference's stage before its last reshape is the
    kernel's output array. -/
theorem stages_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Blocks.atEntry m c := by
  obtain ⟨h1, h2, h7, h8⟩ := Cert.Pre_finite_inputs.Decode.real_of_pre _ _ _ _ _ _ _ _ _ _ _ _ _ _ (hpre c)
  rw [Cert.ReferenceIdeal.AsLayer.result_eq_layer, quantized_1024x4096 _ h1, quantized_4096x1024 _ h2, quantizedR_1024x4096 _ h7,
    quantizedR_4096x1024 _ h8, bias_row]
  unfold Cert.KernelIdeal.Blocks.atEntry
  rw [Cert.KernelIdeal.Blocks.entry_v0, Cert.KernelIdeal.Blocks.entry_v2, Cert.KernelIdeal.Blocks.entry_v4, Cert.KernelIdeal.Blocks.entry_v6, Cert.KernelIdeal.Blocks.entry_v8,
    Cert.KernelIdeal.Blocks.entry_v9, Cert.KernelIdeal.Blocks.entry_v10, Cert.KernelIdeal.Blocks.entry_v11, Cert.KernelIdeal.Gen.V_main_arg3, Cert.KernelIdeal.Gen.V_main_arg6,
    Cert.KernelIdeal.Gen.V_main_arg9, Cert.KernelIdeal.Gen.V_main_arg12]
  rfl

end Cert.Bridge

end
-- ==== Proof.lean ====
/-
  The certificate of a two-branch low-rank linear layer with sign-quantized weights, computed by one kernel over
  64 blocks of 128 rows, against its reference.

  Both programs compute, for every row x of the 8192 × 4096 input matrix and every output column o,

      ( ∑ s, ((∑ i, (x i · v2 i) · Q(V) (s,i)) · (v1 s · u2 s)) · Q(U) (o,s) ) · u1 o
        + (the same of the residual weights)  +  bias o,

  and reshape the 8192 × 4096 result to 4 × 2048 × 4096. The kernel takes `Q(W) = sign W`; the reference takes
  `Q(W) = W + (sign W − W)`, which is `sign W` exactly when the entries of `W` are finite: that is the one place the
  precondition is used. Everything else is the same sums over the same index sets: the kernel's products contract the
  second axis of both operands, the reference's contract with a transpose; the kernel's blocks tile the rows, and a row of
  the result depends on the same row of the input only.

  The three frames are the generated ones (the reference's is its generated run with the result dropped); the
  idealization rewrote nothing, so `preserves` is `True`.
-/
import proofs.«134688_j8615704396413_1_alg».proof.Defs
import proofs.«134688_j8615704396413_1_alg».proof.Proof.Gen.Kernel
import proofs.«134688_j8615704396413_1_alg».proof.Proof.Gen.Kernel.Skeleton
import proofs.«134688_j8615704396413_1_alg».proof.Proof.Gen.Kernel.Launch
import proofs.«134688_j8615704396413_1_alg».proof.Proof.Gen.Kernel.Points
import proofs.«134688_j8615704396413_1_alg».proof.Proof.Gen.Kernel.Frame
import proofs.«134688_j8615704396413_1_alg».proof.Proof.Gen.KernelIdeal
import proofs.«134688_j8615704396413_1_alg».proof.Proof.Gen.KernelIdeal.Skeleton
import proofs.«134688_j8615704396413_1_alg».proof.Proof.Gen.KernelIdeal.Launch
import proofs.«134688_j8615704396413_1_alg».proof.Proof.Gen.KernelIdeal.Points
import proofs.«134688_j8615704396413_1_alg».proof.Proof.Gen.KernelIdeal.Frame
import proofs.«134688_j8615704396413_1_alg».proof.Proof.Gen.ReferenceIdeal
import proofs.«134688_j8615704396413_1_alg».proof.Proof.Gen.Pre_finite_inputs
import proofs.«134688_j8615704396413_1_alg».proof.Proof.Gen.ReferenceIdeal.Run
import proofs.«134688_j8615704396413_1_alg».proof.Proof.Gen.ReferenceIdeal.Read
import proofs.«134688_j8615704396413_1_alg».proof.Proof.Bridge
import Idealize.ShloMosaic.Adequacy
import Idealize.ShloMosaic.Init

noncomputable section

namespace Cert.Proof

open Idealize.ShloMosaic Idealize.SL.Sem Cert.Kernel

/-- The reference terminates and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the fourteen arguments and satisfy the precondition, both idealized programs end with the
    reshape of one 8192 × 4096 matrix: the kernel's output array (`Blocks.run`), which the reference's stage before its
    last reshape equals (`Bridge.stages_eq`). -/
theorem algebraic : Cert.algebraic_KernelIdeal_ReferenceIdeal := by
  intro m ρ m' ρ' hpre hagree
  refine ⟨fun c => shapeCast _ (Cert.KernelIdeal.Blocks.atEntry m c) Cert.KernelIdeal.Facts₀.shapeCasts_S8192x4096_S4x2048x4096,
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [e0, e1, e2, e3, e4, e5, e6, e7, e8, e9, e10, e11, e12, e13, Cert.ReferenceIdeal.Read.val_main_v39_eq]
  exact congrArg (fun y => shapeCast _ y Cert.KernelIdeal.Facts₀.shapeCasts_S8192x4096_S4x2048x4096) (Cert.Bridge.stages_eq m hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
